-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S256x8 : Shape := ⟨2, ![256, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg10 : FVec F S128 .f32) (main_arg11 : FVec F S256x8 .f32) (main_arg12 : FVec F S8 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x8 .f32 := Host.absf main_arg11
  let main_cst_14 : FVec F S_ .f32 := constant S_ .f32 0x7F800000#32
  let main_v40 : FVec F S256x8 .f32 := broadcastInDim S256x8 ![] bcast_S_S256x8 main_cst_14
  let main_v41 : IVec S256x8 1 := cmpf .olt main_v39 main_v40
  let main_c_15 : IVec S_ 1 := constantI S_ 1 1#1
  let main_v42 : IVec S_ 1 := (fun x v => Host.reduce IntOp.andi x v reducesTo_S256x8_S_d0_1 h_S_) main_v41 main_c_15
  let main_v43 : IVec S_ 1 := andi main_v38 main_v42
  let main_v44 : FVec F S8 .f32 := Host.absf main_arg12
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg7 : FVec F S128 .f32) (main_arg8 : FVec F S128x128 .f32) (main_arg9 : FVec F S128x128 .f32) (main_arg10 : FVec F S128 .f32) (main_arg11 : FVec F S256x8 .f32) (main_arg12 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : FVec F S64x128 .f32) (main_arg2 : IVec S1600000 32) (main_arg3 : IVec S1600000 32) (main_arg4 : IVec S100000 32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S256x8 .f32) (main_arg12 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S64x128 : Shape := ⟨2, ![64, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S256x8 : Shape := ⟨2, ![256, 8]⟩
abbrev S8 : Shape := ⟨1, ![8]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S64 : Shape := ⟨1, ![64]⟩
abbrev S64x1 : Shape := ⟨2, ![64, 1]⟩
abbrev S128x8 : Shape := ⟨2, ![128, 8]⟩
abbrev S1x8 : Shape := ⟨2, ![1, 8]⟩
abbrev S64x8 : Shape := ⟨2, ![64, 8]⟩

abbrev nBuf : Space → Nat
  | .hbm => 99
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S256x8, .f32⟩
  | .hbm, ⟨12, _⟩ => ⟨S8, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .bf16⟩
  | .hbm, ⟨39, _⟩ => ⟨S100000x128, .bf16⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .bf16⟩
  | .hbm, ⟨70, _⟩ => ⟨S100000x128, .bf16⟩
  | .hbm, ⟨71, _⟩ => ⟨S128x128, .bf16⟩
  | .hbm, ⟨72, _⟩ => ⟨S128x128, .bf16⟩
  | .hbm, ⟨73, _⟩ => ⟨S1x128, .f32⟩
  | .hbm, ⟨74, _⟩ => ⟨S100000x128, .f32⟩
  | .hbm, ⟨75, _⟩ => ⟨S_, .f32⟩
  | .hbm, ⟨76, _⟩ => ⟨S64x128, .f32⟩
  | .hbm, ⟨77, _⟩ => ⟨S100000x1, .i32⟩
  | .hbm, ⟨78, _⟩ => ⟨S64x128, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S64, .f32⟩
  | .hbm, ⟨83, _⟩ => ⟨S100000x1, .i32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x128, .f32⟩
  | .hbm, ⟨90, _⟩ => ⟨S64x128, .f32⟩
  | .hbm, ⟨91, _⟩ => ⟨S128x8, .f32⟩
  | .hbm, ⟨92, _⟩ => ⟨S128x8, .f32⟩
  | .hbm, ⟨93, _⟩ => ⟨S64x128, .bf16⟩
  | .hbm, ⟨94, _⟩ => ⟨S64x128, .bf16⟩
  | .hbm, ⟨95, _⟩ => ⟨S128x8, .bf16⟩
  | .hbm, ⟨96, _⟩ => ⟨S128x8, .bf16⟩
  | .hbm, ⟨97, _⟩ => ⟨S1x8, .f32⟩
  | .hbm, ⟨98, _⟩ => ⟨S64x8, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S64x128, .bf16⟩
  | .local _ .vmem, ⟨19, _⟩ => ⟨S64x128, .bf16⟩
  | .local _ .vmem, ⟨20, _⟩ => ⟨S128x8, .bf16⟩
  | .local _ .vmem, ⟨21, _⟩ => ⟨S128x8, .bf16⟩
  | .local _ .vmem, ⟨22, _⟩ => ⟨S1x8, .f32⟩
  | .local _ .vmem, ⟨23, _⟩ => ⟨S64x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S64x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x8 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x8 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S256x8_S128x8_0_0 : S256x8.Slices ![0, 0] S128x8
  slices_S256x8_S128x8_128_0 : S256x8.Slices ![128, 0] S128x8
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .bf16 = 32 ∨ (Rect.block (s := S100000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .bf16 = 32 ∨ (Rect.block (s := S100000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .bf16 = 32 ∨ (Rect.block (s := S64x128) S64x128.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .bf16 = 32 ∨ (Rect.block (s := S64x128) S64x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .bf16 = 32 ∨ (Rect.block (s := S128x8) S128x8.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x8.size a ≤ S128x8.size a
  hwx2_3 : ∀ i : grid2.Coords, EltTy.bits .bf16 = 32 ∨ (Rect.block (s := S128x8) S128x8.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S64x8.size a ≤ S64x8.size a
  hwx2_5 : ∀ i : grid2.Coords, EltTy.bits .f32 = 32 ∨ (Rect.block (s := S64x8) S64x8.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_v19) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S64x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v65) S64x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S64x8.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S64x128 : Shape := ⟨2, ![64, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S256x8 : Shape := ⟨2, ![256, 8]⟩
abbrev S8 : Shape := ⟨1, ![8]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64 : Shape := ⟨1, ![64]⟩
abbrev S64x1 : Shape := ⟨2, ![64, 1]⟩
abbrev S64x256 : Shape := ⟨2, ![64, 256]⟩
abbrev S64x8 : Shape := ⟨2, ![64, 8]⟩
abbrev S1x8 : Shape := ⟨2, ![1, 8]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S256x8, .f32⟩
  | .hbm, ⟨12, _⟩ => ⟨S8, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S64x128, .f32⟩
  | .hbm, ⟨80, _⟩ => ⟨S100000x1, .i32⟩
  | .hbm, ⟨81, _⟩ => ⟨S64x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S64, .f32⟩
  | .hbm, ⟨86, _⟩ => ⟨S100000x1, .i32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64x1, .f32⟩
  | .hbm, ⟨92, _⟩ => ⟨S64x128, .f32⟩
  | .hbm, ⟨93, _⟩ => ⟨S64x128, .f32⟩
  | .hbm, ⟨94, _⟩ => ⟨S64x256, .f32⟩
  | .hbm, ⟨95, _⟩ => ⟨S64x8, .f32⟩
  | .hbm, ⟨96, _⟩ => ⟨S1x8, .f32⟩
  | .hbm, ⟨97, _⟩ => ⟨S64x8, .f32⟩
  | .hbm, ⟨98, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x256_d1 : Shape.Concatenates [S64x128, S64x128] S64x256 1
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x256_S256x8_S64x8_1_0_0_1_n_n_wf : DotDims.WF S64x256 S256x8 S64x8 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

class Facts : Prop extends Facts₀ where

variable [Facts]
-- ==== Proof.SageSpec.lean ====
/-
  The model as one function of its thirteen argument arrays.

  A graph of 100000 nodes with 128 features each and 1600000 directed edges `src → dst`.
  • `neighbourMean x src dst`: for every node the sum of `x` over its incoming edges' sources divided by
    `max(in-degree, 1)` — a gather of rows, a scatter-add of them to the destinations, a scatter-add of ones for
    the degrees, and a division.  Which rows meet depends on the edge lists' VALUES; nothing below ever opens it:
    the two programs compared apply this very chain, so it is carried as one function.
  • `linear x mean Ws Wn b = x · Ws + mean · Wn + b`, the bias repeated down the rows; `relu` is the maximum with 0.
  • `graphMean x gid`: the same kind of mean, of the nodes of each of the 64 graphs.
  • `classify hg perm Wc bc = [hg | perm] · Wc + bc`: the graph means and the 64 × 128 side features side by
    side, times the 256 × 8 classifier.
  `model` composes two layers, the pooling and the classifier, and `res_eq` says the reference program's
  result term is `model` of the arguments (the same operations in the same order, under these names).
-/
import proofs.«132302_j42863773614470_1_alg».proof.Proof.Gen.ReferenceIdeal.Run
import Idealize.ShloMosaic.PureOps.Ideal

noncomputable section

namespace Cert.Sage

open Cert.ReferenceIdeal Cert.ReferenceIdeal.Gen Idealize.ShloMosaic Idealize.ShloMosaic.TcCoe Idealize.SL.Sem

abbrev Nodes := FVec Ideal S100000x128 .f32
abbrev Edges := IVec S1600000 32
abbrev Weights := FVec Ideal S128x128 .f32
abbrev Bias := FVec Ideal S128 .f32
abbrev GraphIds := IVec S100000 32
abbrev Graphs := FVec Ideal S64x128 .f32
abbrev Classifier := FVec Ideal S256x8 .f32
abbrev ClassBias := FVec Ideal S8 .f32
abbrev Scores := FVec Ideal S64x8 .f32

/-- The mean of `x` over each node's incoming edges (0 for a node with none): negative source indices count from
    the end, rows are gathered at the sources and added at the destinations, and the sums are divided by the
    in-degrees raised to at least 1. -/
def neighbourMean (x : Nodes) (src dst : Edges) : Nodes :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

/-- `x · Ws + mean · Wn + b`, the bias repeated down the rows. -/
def linear (x mean : Nodes) (Ws Wn : Weights) (b : Bias) : Nodes :=
  addf (addf (Host.dotGeneral dot_S100000x128_S128x128_S100000x128_1_0_0_1_n_n none x Ws) (Host.dotGeneral dot_S100000x128_S128x128_S100000x128_1_0_0_1_n_n none mean Wn)) (broadcastInDim S100000x128 ![0, 1] bcast_S1x128_S100000x128_0_1 (broadcastInDim S1x128 ![1] bcast_S128_S1x128_1 b))

/-- The maximum with 0, entry by entry. -/
def relu (x : Nodes) : Nodes :=
  maximumf x (broadcastInDim S100000x128 ![] bcast_S_S100000x128 (constant S_ .f32 0x00000000#32))

/-- The mean of the nodes' rows over each of the 64 graphs (0 for an empty graph). -/
def graphMean (x : Nodes) (gid : GraphIds) : Graphs :=
  Host.divf (Host.scatterAdd scatter_S64x128_S100000x1_S100000x128_1_0_0_1 (broadcastInDim S64x128 ![] bcast_S_S64x128 (constant S_ .f32 0x00000000#32)) (broadcastInDim S100000x1 ![0] bcast_S100000_S100000x1_0 gid) x) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 gid) (broadcastInDim S100000 ![] bcast_S_S100000 (constant S_ .f32 0x3F800000#32))) (broadcastInDim S64 ![] bcast_S_S64 (constant S_ .f32 0x3F800000#32)))))

/-- `[hg | perm] · Wc + bc`. -/
def classify (hg perm : Graphs) (Wc : Classifier) (bc : ClassBias) : Scores :=
  addf (Host.dotGeneral dot_S64x256_S256x8_S64x8_1_0_0_1_n_n none (concatenate S64x256 1 [⟨S64x128, hg⟩, ⟨S64x128, perm⟩] concatenates_S64x128_S64x128_S64x256_d1) Wc) (broadcastInDim S64x8 ![0, 1] bcast_S1x8_S64x8_0_1 (broadcastInDim S1x8 ![1] bcast_S8_S1x8_1 bc))

/-- The first layer's output. -/
def hidden (h : Nodes) (src dst : Edges) (W1s W1n : Weights) (b1 : Bias) : Nodes :=
  relu (linear h (neighbourMean h src dst) W1s W1n b1)

/-- The whole model. -/
def model (h : Nodes) (perm : Graphs) (src dst : Edges) (gid : GraphIds) (W1s W1n : Weights) (b1 : Bias)
    (W2s W2n : Weights) (b2 : Bias) (Wc : Classifier) (bc : ClassBias) : Scores :=
  classify (graphMean (linear (hidden h src dst W1s W1n b1) (neighbourMean (hidden h src dst W1s W1n b1) src dst) W2s W2n b2) gid) perm Wc bc

/-- The reference program's result term is the model of its arguments. -/
theorem res_eq (m : (ℓ : Loc nD τ sig) → Buf (Elt Ideal) ℓ) (c : Dev nD) :
    Value.res_main_v67 (F := Ideal) m c
      = model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold Value.res_main_v67 model classify graphMean linear hidden relu linear neighbourMean
  rfl

end Cert.Sage

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibDualLinear.lean ====
/-
  Two matrix products added to a row of biases, on the extended reals, read at an entry.

  For matrices `x₁, x₂ : [a, K]`, `w₁, w₂ : [K, n]` and a bias per column, the entry `(r, q)` of
  `x₁ · w₁ + x₂ · w₂ + b` is `(∑ₖ x₁(r,k) · w₁(k,q)) + (∑ₖ x₂(r,k) · w₂(k,q)) + b(q)`.  The same number is
  reached two ways: by two products into zero accumulators, added, plus the bias row repeated down the rows
  (`kernel_entry`), and by two host products, added, plus the bias vector laid out as one row and then repeated
  (`host_entry`).  Only the order of the additions matters here, and it is the same on both sides, so nothing
  is asked of the numbers: the lemmas hold for every extended real.

  Last, a product over a contraction axis of extent `K + K'` whose left operand is two matrices side by side is
  the sum of the two products over `K` and `K'` (`sum_split`): a finite sum split at `K`.
-/
import Idealize.ShloMosaic.Lib.Pipeline.Value
import Idealize.ShloMosaic.Lib.ValueIdx
import Idealize.ShloMosaic.PureOps.Ideal.Laws
import proofs.«132302_j42863773614470_1_alg».proof.Proof.LibRowOps

namespace Cert.DualLinear

open Idealize.ShloMosaic Idealize.ShloMosaic.ValueIdx
open scoped BigOperators

/-- Entry `(r, q)` of `x₁ · w₁ + x₂ · w₂ + b`. -/
noncomputable def entry {a K n : ℕ} {φ₁ φ₂ : FTy} (x1 x2 : FVec Ideal ⟨2, ![a, K]⟩ φ₁) (w1 w2 : FVec Ideal ⟨2, ![K, n]⟩ φ₂)
    (b : Fin n → EReal) (r : Fin a) (q : Fin n) : EReal :=
  (∑ k : Fin K, x1 (ix2 r k) * w1 (ix2 k q)) + (∑ k : Fin K, x2 (ix2 r k) * w2 (ix2 k q)) + b q

/-- The entry depends only on row `r` of the left matrices, column `q` of the right ones and the bias of column `q`:
    two settings that agree there, of whatever extents, have the same entry. -/
theorem entry_congr {a a' K n n' : ℕ} {φ₁ φ₂ φ₁' φ₂' : FTy}
    (x1 x2 : FVec Ideal ⟨2, ![a, K]⟩ φ₁) (w1 w2 : FVec Ideal ⟨2, ![K, n]⟩ φ₂) (b : Fin n → EReal)
    (x1' x2' : FVec Ideal ⟨2, ![a', K]⟩ φ₁') (w1' w2' : FVec Ideal ⟨2, ![K, n']⟩ φ₂') (b' : Fin n' → EReal)
    (r : Fin a) (q : Fin n) (r' : Fin a') (q' : Fin n')
    (hx1 : ∀ k, x1 (ix2 r k) = x1' (ix2 r' k)) (hx2 : ∀ k, x2 (ix2 r k) = x2' (ix2 r' k))
    (hw1 : ∀ k, w1 (ix2 k q) = w1' (ix2 k q')) (hw2 : ∀ k, w2 (ix2 k q) = w2' (ix2 k q')) (hb : b q = b' q') :
    entry x1 x2 w1 w2 b r q = entry x1' x2' w1' w2' b' r' q' := by
  have h1 : (∑ k : Fin K, x1 (ix2 r k) * w1 (ix2 k q)) = ∑ k : Fin K, x1' (ix2 r' k) * w1' (ix2 k q') :=
    Finset.sum_congr rfl fun k _ => by rw [hx1 k, hw1 k]
  have h2 : (∑ k : Fin K, x2 (ix2 r k) * w2 (ix2 k q)) = ∑ k : Fin K, x2' (ix2 r' k) * w2' (ix2 k q') :=
    Finset.sum_congr rfl fun k _ => by rw [hx2 k, hw2 k]
  unfold entry
  rw [h1, h2, hb]

/-- Two products into zero accumulators, added, plus a one-row bias repeated down the rows: at an entry. -/
theorem kernel_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨2, ![1, n]⟩ .f32) (hb : (⟨2, ![1, n]⟩ : Shape).Broadcasts ⟨2, ![a, n]⟩) (hn : n ≠ 1)
    (r : Fin a) (q : Fin n) :
    addf (addf (matmul d prec x1 w1 (constant (F := Ideal) ⟨2, ![a, n]⟩ .f32 0x00000000#32))
        (matmul d prec x2 w2 (constant (F := Ideal) ⟨2, ![a, n]⟩ .f32 0x00000000#32)))
      (broadcastTo ⟨2, ![a, n]⟩ b hb) (ix2 r q)
      = entry x1 x2 w1 w2 (fun q => b (ix2 0 q)) r q := by
  rw [addf_apply, addf_apply, RowOps.matmul_zero_entry d hr hs hl0 hl1 hr0 hr1,
    RowOps.matmul_zero_entry d hr hs hl0 hl1 hr0 hr1]
  rw [broadcastTo_apply b hb (ix2 r q) (ix2 0 q) (fun ax => by
    match ax with
    | ⟨0, _⟩ => simp
    | ⟨1, _⟩ => simp [hn])]
  rfl

/-- A vector laid out as one row, read at column `q`. -/
theorem row_of_vector {n : ℕ} {α : Type} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine (shapeCast_addUnit_apply ![n] b h (ix2 0 q)).trans (congrArg b ?_)
  funext a
  match a with
  | ⟨0, _⟩ => rfl

/-- A bias vector laid out as one row and repeated down the rows, at an entry. -/
theorem bias_entry {a n : ℕ} {α : Type} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1) (r : Fin a) (q : Fin n) :
    broadcastInDim ⟨2, ![a, n]⟩ ![0, 1] h2 (broadcastInDim ⟨2, ![1, n]⟩ ![1] h1 b) (ix2 r q) = b (ix1 q) := by
  rw [broadcastInDim_apply ![0, 1] h2 _ (ix2 r q) (ix2 0 q) (fun ax => by
    match ax with
    | ⟨0, _⟩ => simp
    | ⟨1, _⟩ => simp [hn]; rfl)]
  rw [broadcastInDim_apply ![1] h1 b (ix2 0 q) (ix1 q) (fun ax => by
    match ax with
    | ⟨0, _⟩ => simp [hn]; rfl)]

/-- Two host products, added, plus a bias vector laid out as one row and repeated down the rows: at an entry. -/
theorem host_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1)
    (r : Fin a) (q : Fin n) :
    addf (addf (Host.dotGeneral (F := Ideal) d prec x1 w1) (Host.dotGeneral (F := Ideal) d prec x2 w2))
      (broadcastInDim ⟨2, ![a, n]⟩ ![0, 1] h2 (broadcastInDim ⟨2, ![1, n]⟩ ![1] h1 b)) (ix2 r q)
      = entry x1 x2 w1 w2 (fun q => b (ix1 q)) r q := by
  rw [addf_apply, addf_apply, RowOps.dotGeneral_entry d hr hs hl0 hl1 hr0 hr1,
    RowOps.dotGeneral_entry d hr hs hl0 hl1 hr0 hr1]
  rw [bias_entry b h1 h2 hn r q]
  rfl

/-- A sum over `K + K'` terms is the sum of its first `K` and its last `K'` terms. -/
theorem sum_split {K K' : ℕ} (f : Fin (K + K') → EReal) :
    ∑ k : Fin (K + K'), f k = (∑ k : Fin K, f (Fin.castAdd K' k)) + ∑ k : Fin K', f (Fin.natAdd K k) :=
  Fin.sum_univ_add f

end Cert.DualLinear
-- ==== Proof.ModelEntries.lean ====
/-
  The model's linear stages read at an entry.

  `linear x mean Ws Wn b` at row `r`, column `q` is `(∑ₖ x(r,k) · Ws(k,q)) + (∑ₖ mean(r,k) · Wn(k,q)) + b(q)`:
  the two host products are plain sums at the ideal instance and the bias is repeated down the rows.
  `relu` is the maximum with the number the zero word denotes.
  `classify hg perm Wc bc` at `(r, q)` is `(∑_{k<256} [hg | perm](r,k) · Wc(k,q)) + bc(q)`; the sum over the 256 joined
  columns splits at 128 into the graph means against the classifier's top half and the side features against its
  bottom half — a finite sum split in two, true of all extended reals.
-/
import proofs.«132302_j42863773614470_1_alg».proof.Proof.SageSpec
import proofs.«132302_j42863773614470_1_alg».proof.Proof.Gen.ReferenceIdeal.Read
import proofs.«132302_j42863773614470_1_alg».proof.Proof.LibDualLinear

noncomputable section

namespace Cert.Sage

open Cert.ReferenceIdeal Cert.ReferenceIdeal.Gen Cert.ReferenceIdeal.Read Idealize.ShloMosaic Idealize.ShloMosaic.ValueIdx
open scoped BigOperators

/-- The linear stage at an entry. -/
theorem linear_entry (x mean : Nodes) (Ws Wn : Weights) (b : Bias) (r : Fin 100000) (q : Fin 128) :
    linear x mean Ws Wn b (ix2 r q)
      = DualLinear.entry (φ₁ := .f32) (φ₂ := .f32) x mean Ws Wn (fun q => b (ix1 q)) r q := by
  unfold linear
  exact DualLinear.host_entry dot_S100000x128_S128x128_S100000x128_1_0_0_1_n_n rfl rfl lhs_main_v19_0 lhs_main_v19_1 rhs_main_v19_0 rhs_main_v19_1 none
    x mean Ws Wn b bcast_S128_S1x128_1 bcast_S1x128_S100000x128_0_1 (by decide) r q

/-- The maximum with 0 at an entry. -/
theorem relu_entry (x : Nodes) (i : S100000x128.Idx) : relu x i = max (x i) (Ideal.ofBits .f32 0x00000000#32) := by
  unfold relu
  rw [maximumf_apply]
  rfl

/-- The classifier's top half: rows 0 … 127. -/
def topHalf (Wc : Classifier) : (⟨2, ![128, 8]⟩ : Shape).Idx → EReal := fun i => Wc (ix2 (Fin.castAdd 128 (i 0)) (i 1))
/-- The classifier's bottom half: rows 128 … 255. -/
def bottomHalf (Wc : Classifier) : (⟨2, ![128, 8]⟩ : Shape).Idx → EReal := fun i => Wc (ix2 (Fin.natAdd 128 (i 0)) (i 1))

/-- The classifier at an entry: the product over the 256 joined columns, split at 128. -/
theorem classify_entry (hg perm : Graphs) (Wc : Classifier) (bc : ClassBias) (r : Fin 64) (q : Fin 8) :
    classify hg perm Wc bc (ix2 r q)
      = DualLinear.entry (φ₁ := .f32) (φ₂ := .f32) hg perm (topHalf Wc) (bottomHalf Wc) (fun q => bc (ix1 q)) r q := by
  unfold classify DualLinear.entry
  rw [addf_apply, RowOps.dotGeneral_entry dot_S64x256_S256x8_S64x8_1_0_0_1_n_n rfl rfl lhs_main_v64_0 lhs_main_v64_1 rhs_main_v64_0 rhs_main_v64_1,
    DualLinear.bias_entry bc bcast_S8_S1x8_1 bcast_S1x8_S64x8_0_1 (by decide) r q]
  refine congrArg (· + bc (ix1 q)) ?_
  refine (DualLinear.sum_split (K := 128) (K' := 128) _).trans ?_
  refine congrArg₂ (· + ·) (Finset.sum_congr rfl fun k _ => ?_) (Finset.sum_congr rfl fun k _ => ?_)
  · refine congrArg₂ (· * ·) ?_ rfl
    exact concatenate_pair_apply_left (1 : Fin 2) hg perm concatenates_S64x128_S64x128_S64x256_d1
      (ix2 r (Fin.castAdd 128 k)) rfl (ix2 r k) (fun b => by
        match b with
        | ⟨0, _⟩ => rfl
        | ⟨1, _⟩ => rfl)
  · refine congrArg₂ (· * ·) ?_ rfl
    exact concatenate_pair_apply_right (1 : Fin 2) hg perm concatenates_S64x128_S64x128_S64x256_d1
      (ix2 r (Fin.natAdd 128 k)) rfl rfl (ix2 r k) (fun b hb => by
        match b with
        | ⟨0, _⟩ => rfl
        | ⟨1, _⟩ => exact absurd rfl hb) (by show k.val + 128 = 128 + k.val; omega)

end Cert.Sage

end
-- ==== Proof.Layer1Kernel.lean ====
/-
  The first layer's kernel: `relu(x₁ · w₁ + x₂ · w₂ + b)` over 100000 rows, block by block and as a whole.

  The kernel runs on blocks of 2000 rows.  At grid point `t` it is given rows `2000·t … 2000·t + 1999` of the
  two left matrices, the two whole 128 × 128 right matrices and the one-row bias, and it stores, for row `r` and
  column `q` of its block, `max((∑ₖ x₁(r,k) · w₁(k,q)) + (∑ₖ x₂(r,k) · w₂(k,q)) + b(q), 0)`.  That entry depends only on
  row `r` of the left blocks, so block `t` of the result is block `t` of ONE function of the whole arrays
  (`whole`), the blocks tile the 100000 rows, and the result array after the run is that function — for
  whatever the arrays held when the kernel was entered.
-/
import proofs.«132302_j42863773614470_1_alg».proof.Proof.Gen.KernelIdeal.Frame
import proofs.«132302_j42863773614470_1_alg».proof.Proof.LibDualLinear
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Layer1

open Cert.KernelIdeal Cert.KernelIdeal.Gen

/-! ## The product's dimension numbers: which operand coordinate is the output's, which the contraction's -/

theorem dl0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dl1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dr0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dr1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## One block -/

/-- What the body stores at row `r`, column `q` of its block, from the blocks it loaded. -/
theorem stored_entry (x1 x2 : Vec Ideal S2000x128 .bf16) (w1 w2 : Vec Ideal S128x128 .bf16) (b : Vec Ideal S1x128 .f32)
    (r : Fin 2000) (q : Fin 128) :
    k0_pay1 (F := Ideal) x1 w1 x2 w2 b (ix2 r q)
      = max (DualLinear.entry (φ₁ := .bf16) (φ₂ := .bf16) x1 x2 w1 w2 (fun q => b (ix2 0 q)) r q) (Ideal.ofBits .f32 0x00000000#32) := by
  unfold k0_pay1
  simp only [shapeCast_self]
  rw [maximumf_apply]
  refine congrArg₂ max ?_ rfl
  exact DualLinear.kernel_entry dot_S2000x128_S128x128_S2000x128_1_0_0_1_n_n rfl rfl dl0 dl1 dr0 dr1 none x1 x2 w1 w2 b broadcasts_S1x128_S2000x128 (by decide) r q

/-! ## The whole array -/

/-- The result as one function of the five arrays, entry by entry. -/
def whole (x1 x2 : S100000x128.Idx → EReal) (w1 w2 : S128x128.Idx → EReal) (b : S1x128.Idx → EReal) : S100000x128.Idx → EReal :=
  fun i => max (DualLinear.entry (φ₁ := .bf16) (φ₂ := .bf16) x1 x2 w1 w2 (fun q => b (ix2 0 q)) (i 0) (i 1)) (Ideal.ofBits .f32 0x00000000#32)

theorem hz : (![0, 0] : Fin 2 → Nat) = fun _ => 0 := funext fun a => by fin_cases a <;> rfl

/-- The block indices over the grid: the left matrices and the result move down the rows with the point, the right
    matrices and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of `whole` of the arrays as the kernel finds them. -/
theorem flushed_eq (c : Dev nD) (t : Fin cfg0.N) :
    (dat0 V c).flushed 5 t = ((cfg0.win 5).blk t).view.read (Elt Ideal)
      (whole (V c main_v19) (V c main_v20) (V c main_v21) (V c main_v22) (V c main_v23)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  obtain ⟨r, q, rfl⟩ : ∃ (r : Fin 2000) (q : Fin 128), j = ix2 r q := ⟨j 0, j 1, eq_ix2 j⟩
  show k0_pay1 (F := Ideal) (iblk0 V c 0 t) (iblk0 V c 2 t) (iblk0 V c 1 t) (iblk0 V c 3 t) (iblk0 V c 4 t) (ix2 r q)
      = whole (V c main_v19) (V c main_v20) (V c main_v21) (V c main_v22) (V c main_v23) (((cfg0.win 5).blk t).view.emb (ix2 r q))
  refine (stored_entry (iblk0 V c 0 t) (iblk0 V c 1 t) (iblk0 V c 2 t) (iblk0 V c 3 t) (iblk0 V c 4 t) r q).trans ?_
  unfold whole
  refine congrArg₂ max ?_ rfl
  refine DualLinear.entry_congr _ _ _ _ _ _ _ _ _ _ r q _ _ (fun k => ?_) (fun k => ?_) (fun k => ?_) (fun k => ?_) ?_
  · -- row r of the first left block is row 2000·t + r of its array
    show V c main_v19 (((cfg0.win 0).blk t).view.emb (ix2 r k)) = V c main_v19 (ix2 (((cfg0.win 5).blk t).view.emb (ix2 r q) 0) k)
    refine congrArg _ (funext fun a => Fin.ext ?_)
    match a with
    | ⟨0, _⟩ => show win0_0.index t (0 : Fin 2) * 2000 + 1 * r.val = win0_5.index t (0 : Fin 2) * 2000 + 1 * r.val; omega
    | ⟨1, _⟩ => show win0_0.index t (1 : Fin 2) * 128 + 1 * k.val = k.val; omega
  · -- the same of the second left block
    show V c main_v20 (((cfg0.win 1).blk t).view.emb (ix2 r k)) = V c main_v20 (ix2 (((cfg0.win 5).blk t).view.emb (ix2 r q) 0) k)
    refine congrArg _ (funext fun a => Fin.ext ?_)
    match a with
    | ⟨0, _⟩ => show win0_1.index t (0 : Fin 2) * 2000 + 1 * r.val = win0_5.index t (0 : Fin 2) * 2000 + 1 * r.val; omega
    | ⟨1, _⟩ => show win0_1.index t (1 : Fin 2) * 128 + 1 * k.val = k.val; omega
  · -- the right matrices are loaded whole: column q of the block is column q of the array
    show V c main_v21 (((cfg0.win 2).blk t).view.emb (ix2 k q)) = V c main_v21 (ix2 k (((cfg0.win 5).blk t).view.emb (ix2 r q) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_v22 (((cfg0.win 3).blk t).view.emb (ix2 k q)) = V c main_v22 (ix2 k (((cfg0.win 5).blk t).view.emb (ix2 r q) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · -- and so is the one-row bias
    show V c main_v23 (((cfg0.win 4).blk t).view.emb (ix2 0 q)) = V c main_v23 (ix2 0 (((cfg0.win 5).blk t).view.emb (ix2 r q) 1))
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24).slice (win0_5.rect t)).set ↔ _
  rw [View.set_slice_whole, Rect.mem_set_unit]
  exact Iff.rfl

/-- Every row is in some point's block: row `r` in that of point `r / 2000`. -/
theorem cover (i : S100000x128.Idx) :
    ∃ t : Fin cfg0.N, (cfg0.win 5).flush t = true ∧ i ∈ ((cfg0.win 5).blk t).view.set := by
  have hN : cfg0.N = 50 := N_0
  have h0 : (i 0).val < 100000 := (i 0).isLt
  have h1 : (i 1).val < 128 := (i 1).isLt
  have htl : (i 0).val / 2000 < cfg0.N := by rw [hN]; omega
  obtain ⟨-, -, -, -, -, -, -, -, -, -, e50, e51⟩ := idx_facts ⟨(i 0).val / 2000, htl⟩
  have e50' : win0_5.index ⟨(i 0).val / 2000, htl⟩ (0 : Fin 2) = (i 0).val / 2000 := e50
  refine ⟨⟨(i 0).val / 2000, htl⟩, flush0_5 _, ?_⟩
  rw [mem_blk]
  intro a
  match a with
  | ⟨0, _⟩ =>
    show win0_5.index ⟨(i 0).val / 2000, htl⟩ (0 : Fin 2) * 2000 ≤ (i 0).val
      ∧ (i 0).val < win0_5.index ⟨(i 0).val / 2000, htl⟩ (0 : Fin 2) * 2000 + 2000
    omega
  | ⟨1, _⟩ =>
    show win0_5.index ⟨(i 0).val / 2000, htl⟩ (1 : Fin 2) * 128 ≤ (i 1).val
      ∧ (i 1).val < win0_5.index ⟨(i 0).val / 2000, htl⟩ (1 : Fin 2) * 128 + 128
    omega

/-- The result array after the kernel: `whole` of the arrays as the kernel found them. -/
theorem result_eq (c : Dev nD) :
    (dat0 V c).arrAt 5 cfg0.N = whole (V c main_v19) (V c main_v20) (V c main_v21) (V c main_v22) (V c main_v23) :=
  (dat0 V c).arrAt_eq_of_cover 5 _ (fun t _ => flushed_eq V c t) cover

end Cert.KernelIdeal.Layer1

end
-- ==== Proof.Layer2Kernel.lean ====
/-
  The second layer's kernel: `x₁ · w₁ + x₂ · w₂ + b` over 100000 rows, block by block and as a whole.

  The kernel runs on blocks of 2000 rows.  At grid point `t` it is given rows `2000·t … 2000·t + 1999` of the
  two left matrices, the two whole 128 × 128 right matrices and the one-row bias, and it stores, for row `r` and
  column `q` of its block, `(∑ₖ x₁(r,k) · w₁(k,q)) + (∑ₖ x₂(r,k) · w₂(k,q)) + b(q)`.  That entry depends only on
  row `r` of the left blocks, so block `t` of the result is block `t` of ONE function of the whole arrays
  (`whole`), the blocks tile the 100000 rows, and the result array after the run is that function — for
  whatever the arrays held when the kernel was entered.
-/
import proofs.«132302_j42863773614470_1_alg».proof.Proof.Gen.KernelIdeal.Frame
import proofs.«132302_j42863773614470_1_alg».proof.Proof.LibDualLinear
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Layer2

open Cert.KernelIdeal Cert.KernelIdeal.Gen

/-! ## The product's dimension numbers: which operand coordinate is the output's, which the contraction's -/

theorem dl0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dl1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dr0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dr1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## One block -/

/-- What the body stores at row `r`, column `q` of its block, from the blocks it loaded. -/
theorem stored_entry (x1 x2 : Vec Ideal S2000x128 .bf16) (w1 w2 : Vec Ideal S128x128 .bf16) (b : Vec Ideal S1x128 .f32)
    (r : Fin 2000) (q : Fin 128) :
    k1_pay1 (F := Ideal) x1 w1 x2 w2 b (ix2 r q)
      = DualLinear.entry (φ₁ := .bf16) (φ₂ := .bf16) x1 x2 w1 w2 (fun q => b (ix2 0 q)) r q := by
  unfold k1_pay1
  simp only [shapeCast_self]
  exact DualLinear.kernel_entry dot_S2000x128_S128x128_S2000x128_1_0_0_1_n_n rfl rfl dl0 dl1 dr0 dr1 none x1 x2 w1 w2 b broadcasts_S1x128_S2000x128 (by decide) r q

/-! ## The whole array -/

/-- The result as one function of the five arrays, entry by entry. -/
def whole (x1 x2 : S100000x128.Idx → EReal) (w1 w2 : S128x128.Idx → EReal) (b : S1x128.Idx → EReal) : S100000x128.Idx → EReal :=
  fun i => DualLinear.entry (φ₁ := .bf16) (φ₂ := .bf16) x1 x2 w1 w2 (fun q => b (ix2 0 q)) (i 0) (i 1)

theorem hz : (![0, 0] : Fin 2 → Nat) = fun _ => 0 := funext fun a => by fin_cases a <;> rfl

/-- The block indices over the grid: the left matrices and the result move down the rows with the point, the right
    matrices and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of `whole` of the arrays as the kernel finds them. -/
theorem flushed_eq (c : Dev nD) (t : Fin cfg1.N) :
    (dat1 V c).flushed 5 t = ((cfg1.win 5).blk t).view.read (Elt Ideal)
      (whole (V c main_v44) (V c main_v45) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  obtain ⟨r, q, rfl⟩ : ∃ (r : Fin 2000) (q : Fin 128), j = ix2 r q := ⟨j 0, j 1, eq_ix2 j⟩
  show k1_pay1 (F := Ideal) (iblk1 V c 0 t) (iblk1 V c 2 t) (iblk1 V c 1 t) (iblk1 V c 3 t) (iblk1 V c 4 t) (ix2 r q)
      = whole (V c main_v44) (V c main_v45) (V c main_v46) (V c main_v47) (V c main_v48) (((cfg1.win 5).blk t).view.emb (ix2 r q))
  refine (stored_entry (iblk1 V c 0 t) (iblk1 V c 1 t) (iblk1 V c 2 t) (iblk1 V c 3 t) (iblk1 V c 4 t) r q).trans ?_
  unfold whole
  refine DualLinear.entry_congr _ _ _ _ _ _ _ _ _ _ r q _ _ (fun k => ?_) (fun k => ?_) (fun k => ?_) (fun k => ?_) ?_
  · -- row r of the first left block is row 2000·t + r of its array
    show V c main_v44 (((cfg1.win 0).blk t).view.emb (ix2 r k)) = V c main_v44 (ix2 (((cfg1.win 5).blk t).view.emb (ix2 r q) 0) k)
    refine congrArg _ (funext fun a => Fin.ext ?_)
    match a with
    | ⟨0, _⟩ => show win1_0.index t (0 : Fin 2) * 2000 + 1 * r.val = win1_5.index t (0 : Fin 2) * 2000 + 1 * r.val; omega
    | ⟨1, _⟩ => show win1_0.index t (1 : Fin 2) * 128 + 1 * k.val = k.val; omega
  · -- the same of the second left block
    show V c main_v45 (((cfg1.win 1).blk t).view.emb (ix2 r k)) = V c main_v45 (ix2 (((cfg1.win 5).blk t).view.emb (ix2 r q) 0) k)
    refine congrArg _ (funext fun a => Fin.ext ?_)
    match a with
    | ⟨0, _⟩ => show win1_1.index t (0 : Fin 2) * 2000 + 1 * r.val = win1_5.index t (0 : Fin 2) * 2000 + 1 * r.val; omega
    | ⟨1, _⟩ => show win1_1.index t (1 : Fin 2) * 128 + 1 * k.val = k.val; omega
  · -- the right matrices are loaded whole: column q of the block is column q of the array
    show V c main_v46 (((cfg1.win 2).blk t).view.emb (ix2 k q)) = V c main_v46 (ix2 k (((cfg1.win 5).blk t).view.emb (ix2 r q) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show V c main_v47 (((cfg1.win 3).blk t).view.emb (ix2 k q)) = V c main_v47 (ix2 k (((cfg1.win 5).blk t).view.emb (ix2 r q) 1))
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · -- and so is the one-row bias
    show V c main_v48 (((cfg1.win 4).blk t).view.emb (ix2 0 q)) = V c main_v48 (ix2 0 (((cfg1.win 5).blk t).view.emb (ix2 r q) 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v49).slice (win1_5.rect t)).set ↔ _
  rw [View.set_slice_whole, Rect.mem_set_unit]
  exact Iff.rfl

/-- Every row is in some point's block: row `r` in that of point `r / 2000`. -/
theorem cover (i : S100000x128.Idx) :
    ∃ t : Fin cfg1.N, (cfg1.win 5).flush t = true ∧ i ∈ ((cfg1.win 5).blk t).view.set := by
  have hN : cfg1.N = 50 := N_1
  have h0 : (i 0).val < 100000 := (i 0).isLt
  have h1 : (i 1).val < 128 := (i 1).isLt
  have htl : (i 0).val / 2000 < cfg1.N := by rw [hN]; omega
  obtain ⟨-, -, -, -, -, -, -, -, -, -, e50, e51⟩ := idx_facts ⟨(i 0).val / 2000, htl⟩
  have e50' : win1_5.index ⟨(i 0).val / 2000, htl⟩ (0 : Fin 2) = (i 0).val / 2000 := e50
  refine ⟨⟨(i 0).val / 2000, htl⟩, flush1_5 _, ?_⟩
  rw [mem_blk]
  intro a
  match a with
  | ⟨0, _⟩ =>
    show win1_5.index ⟨(i 0).val / 2000, htl⟩ (0 : Fin 2) * 2000 ≤ (i 0).val
      ∧ (i 0).val < win1_5.index ⟨(i 0).val / 2000, htl⟩ (0 : Fin 2) * 2000 + 2000
    omega
  | ⟨1, _⟩ =>
    show win1_5.index ⟨(i 0).val / 2000, htl⟩ (1 : Fin 2) * 128 ≤ (i 1).val
      ∧ (i 1).val < win1_5.index ⟨(i 0).val / 2000, htl⟩ (1 : Fin 2) * 128 + 128
    omega

/-- The result array after the kernel: `whole` of the arrays as the kernel found them. -/
theorem result_eq (c : Dev nD) :
    (dat1 V c).arrAt 5 cfg1.N = whole (V c main_v44) (V c main_v45) (V c main_v46) (V c main_v47) (V c main_v48) :=
  (dat1 V c).arrAt_eq_of_cover 5 _ (fun t _ => flushed_eq V c t) cover

end Cert.KernelIdeal.Layer2

end
-- ==== Proof.ClassifierKernel.lean ====
/-
  The classifier's kernel: `x₁ · w₁ + x₂ · w₂ + b` for the 64 graphs and 8 classes, in one block.

  The kernel runs on blocks of 64 rows (here the one block is the whole array).  At grid point `t` it is given rows `64·t … 64·t + 63` of the
  two left matrices, the two whole 128 × 8 right matrices and the one-row bias, and it stores, for row `r` and
  column `q` of its block, `(∑ₖ x₁(r,k) · w₁(k,q)) + (∑ₖ x₂(r,k) · w₂(k,q)) + b(q)`.  That entry depends only on
  row `r` of the left blocks, so block `t` of the result is block `t` of ONE function of the whole arrays
  (`whole`), the blocks tile the 64 rows, and the result array after the run is that function — for
  whatever the arrays held when the kernel was entered.
-/
import proofs.«132302_j42863773614470_1_alg».proof.Proof.Gen.KernelIdeal.Frame
import proofs.«132302_j42863773614470_1_alg».proof.Proof.LibDualLinear
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Classifier

open Cert.KernelIdeal Cert.KernelIdeal.Gen

/-! ## The product's dimension numbers: which operand coordinate is the output's, which the contraction's -/

theorem dl0 (i : S64x8.Idx) (q : dot_S64x128_S128x8_S64x8_1_0_0_1_n_n.contr.Idx) : (dot_S64x128_S128x8_S64x8_1_0_0_1_n_n.lhsIdx i q 0).val = (i 0).val := by
  unfold DotDims.lhsIdx
  rw [dif_neg (show ¬(0 : Fin S64x128.rank) ∈ dot_S64x128_S128x8_S64x8_1_0_0_1_n_n.lhsBatch by decide), dif_pos (show (0 : Fin S64x128.rank) ∈ dot_S64x128_S128x8_S64x8_1_0_0_1_n_n.lhsNonContracting by decide)]
  rfl
theorem dl1 (i : S64x8.Idx) (q : dot_S64x128_S128x8_S64x8_1_0_0_1_n_n.contr.Idx) : (dot_S64x128_S128x8_S64x8_1_0_0_1_n_n.lhsIdx i q 1).val = (q ⟨0, by decide⟩).val :=
  dot_S64x128_S128x8_S64x8_1_0_0_1_n_n.lhsIdx_val_of_single rfl i q
theorem dr0 (i : S64x8.Idx) (q : dot_S64x128_S128x8_S64x8_1_0_0_1_n_n.contr.Idx) : (dot_S64x128_S128x8_S64x8_1_0_0_1_n_n.rhsIdx i q 0).val = (q ⟨0, by decide⟩).val :=
  dot_S64x128_S128x8_S64x8_1_0_0_1_n_n.rhsIdx_val_of_single rfl i q
theorem dr1 (i : S64x8.Idx) (q : dot_S64x128_S128x8_S64x8_1_0_0_1_n_n.contr.Idx) : (dot_S64x128_S128x8_S64x8_1_0_0_1_n_n.rhsIdx i q 1).val = (i 1).val := by
  unfold DotDims.rhsIdx
  rw [dif_neg (show ¬(1 : Fin S128x8.rank) ∈ dot_S64x128_S128x8_S64x8_1_0_0_1_n_n.rhsBatch by decide), dif_pos (show (1 : Fin S128x8.rank) ∈ dot_S64x128_S128x8_S64x8_1_0_0_1_n_n.rhsNonContracting by decide)]
  rfl

/-! ## One block -/

/-- What the body stores at row `r`, column `q` of its block, from the blocks it loaded. -/
theorem stored_entry (x1 x2 : Vec Ideal S64x128 .bf16) (w1 w2 : Vec Ideal S128x8 .bf16) (b : Vec Ideal S1x8 .f32)
    (r : Fin 64) (q : Fin 8) :
    k2_pay1 (F := Ideal) x1 w1 x2 w2 b (ix2 r q)
      = DualLinear.entry (φ₁ := .bf16) (φ₂ := .bf16) x1 x2 w1 w2 (fun q => b (ix2 0 q)) r q := by
  unfold k2_pay1
  simp only [shapeCast_self]
  exact DualLinear.kernel_entry dot_S64x128_S128x8_S64x8_1_0_0_1_n_n rfl rfl dl0 dl1 dr0 dr1 none x1 x2 w1 w2 b broadcasts_S1x8_S64x8 (by decide) r q

/-! ## The whole array -/

/-- The result as one function of the five arrays, entry by entry. -/
def whole (x1 x2 : S64x128.Idx → EReal) (w1 w2 : S128x8.Idx → EReal) (b : S1x8.Idx → EReal) : S64x8.Idx → EReal :=
  fun i => DualLinear.entry (φ₁ := .bf16) (φ₂ := .bf16) x1 x2 w1 w2 (fun q => b (ix2 0 q)) (i 0) (i 1)

theorem hz : (![0, 0] : Fin 2 → Nat) = fun _ => 0 := funext fun a => by fin_cases a <;> rfl

/-- The block indices over the grid: the left matrices and the result move down the rows with the point, the right
    matrices and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

set_option maxHeartbeats 1600000 in
/-- What point `t` writes back is block `t` of `whole` of the arrays as the kernel finds them. -/
theorem flushed_eq (c : Dev nD) (t : Fin cfg2.N) :
    (dat2 V c).flushed 5 t = ((cfg2.win 5).blk t).view.read (Elt Ideal)
      (whole (V c main_v64) (V c main_v65) (V c main_v66) (V c main_v67) (V c main_v68)) := by
  show (cfg2.win 5).cut (grid2.coords t) ((dat2 V c).after 5 t) = _
  rw [after2_5]
  unfold out2_5
  rw [View.canon_unit_zero hz]
  simp only [View.ld_unit_zero (S := S64x128) hz, View.ld_unit_zero (S := S128x8) hz, View.ld_unit_zero (S := S1x8) hz]
  obtain ⟨e00, e01, e10, e11, e20, e21, e30, e31, e40, e41, e50, e51⟩ := idx_facts t
  funext j
  obtain ⟨r, q, rfl⟩ : ∃ (r : Fin 64) (q : Fin 8), j = ix2 r q := ⟨j 0, j 1, eq_ix2 j⟩
  show k2_pay1 (F := Ideal) (iblk2 V c 0 t) (iblk2 V c 2 t) (iblk2 V c 1 t) (iblk2 V c 3 t) (iblk2 V c 4 t) (ix2 r q)
      = whole (V c main_v64) (V c main_v65) (V c main_v66) (V c main_v67) (V c main_v68) (((cfg2.win 5).blk t).view.emb (ix2 r q))
  refine (stored_entry (iblk2 V c 0 t) (iblk2 V c 1 t) (iblk2 V c 2 t) (iblk2 V c 3 t) (iblk2 V c 4 t) r q).trans ?_
  unfold whole
  refine DualLinear.entry_congr _ _ _ _ _ _ _ _ _ _ r q _ _ (fun k => ?_) (fun k => ?_) (fun k => ?_) (fun k => ?_) ?_
  · -- row r of the first left block is row 64·t + r of its array
    show V c main_v64 (((cfg2.win 0).blk t).view.emb (ix2 r k)) = V c main_v64 (ix2 (((cfg2.win 5).blk t).view.emb (ix2 r q) 0) k)
    refine congrArg _ (funext fun a => Fin.ext ?_)
    match a with
    | ⟨0, _⟩ => show win2_0.index t (0 : Fin 2) * 64 + 1 * r.val = win2_5.index t (0 : Fin 2) * 64 + 1 * r.val; omega
    | ⟨1, _⟩ => show win2_0.index t (1 : Fin 2) * 128 + 1 * k.val = k.val; omega
  · -- the same of the second left block
    show V c main_v65 (((cfg2.win 1).blk t).view.emb (ix2 r k)) = V c main_v65 (ix2 (((cfg2.win 5).blk t).view.emb (ix2 r q) 0) k)
    refine congrArg _ (funext fun a => Fin.ext ?_)
    match a with
    | ⟨0, _⟩ => show win2_1.index t (0 : Fin 2) * 64 + 1 * r.val = win2_5.index t (0 : Fin 2) * 64 + 1 * r.val; omega
    | ⟨1, _⟩ => show win2_1.index t (1 : Fin 2) * 128 + 1 * k.val = k.val; omega
  · -- the right matrices are loaded whole: column q of the block is column q of the array
    show V c main_v66 (((cfg2.win 2).blk t).view.emb (ix2 k q)) = V c main_v66 (ix2 k (((cfg2.win 5).blk t).view.emb (ix2 r q) 1))
    refine congrArg _ (funext fun a => Fin.ext ?_)
    match a with
    | ⟨0, _⟩ => show win2_2.index t (0 : Fin 2) * 128 + 1 * k.val = k.val; omega
    | ⟨1, _⟩ => show win2_2.index t (1 : Fin 2) * 8 + 1 * q.val = win2_5.index t (1 : Fin 2) * 8 + 1 * q.val; omega
  · show V c main_v67 (((cfg2.win 3).blk t).view.emb (ix2 k q)) = V c main_v67 (ix2 k (((cfg2.win 5).blk t).view.emb (ix2 r q) 1))
    refine congrArg _ (funext fun a => Fin.ext ?_)
    match a with
    | ⟨0, _⟩ => show win2_3.index t (0 : Fin 2) * 128 + 1 * k.val = k.val; omega
    | ⟨1, _⟩ => show win2_3.index t (1 : Fin 2) * 8 + 1 * q.val = win2_5.index t (1 : Fin 2) * 8 + 1 * q.val; omega
  · -- and so is the one-row bias
    show V c main_v68 (((cfg2.win 4).blk t).view.emb (ix2 0 q)) = V c main_v68 (ix2 0 (((cfg2.win 5).blk t).view.emb (ix2 r q) 1))
    refine congrArg _ (funext fun a => Fin.ext ?_)
    match a with
    | ⟨0, _⟩ => show win2_4.index t (0 : Fin 2) * 1 + 1 * 0 = 0; omega
    | ⟨1, _⟩ => show win2_4.index t (1 : Fin 2) * 8 + 1 * q.val = win2_5.index t (1 : Fin 2) * 8 + 1 * q.val; omega

/-- An index of the result array is in point `t`'s block iff each coordinate is in the block's range on its axis. -/
theorem mem_blk (t : Fin cfg2.N) (i : S64x8.Idx) :
    i ∈ ((cfg2.win 5).blk t).view.set ↔ ∀ a : Fin 2, win2_5.index t a * S64x8.size a ≤ (i a).val
      ∧ (i a).val < win2_5.index t a * S64x8.size a + S64x8.size a := by
  show i ∈ ((View.whole main_v69).slice (win2_5.rect t)).set ↔ _
  rw [View.set_slice_whole, Rect.mem_set_unit]
  exact Iff.rfl

/-- Every row is in some point's block: row `r` in that of point `r / 64`. -/
theorem cover (i : S64x8.Idx) :
    ∃ t : Fin cfg2.N, (cfg2.win 5).flush t = true ∧ i ∈ ((cfg2.win 5).blk t).view.set := by
  have hN : cfg2.N = 1 := N_2
  have h0 : (i 0).val < 64 := (i 0).isLt
  have h1 : (i 1).val < 8 := (i 1).isLt
  have htl : (i 0).val / 64 < cfg2.N := by rw [hN]; omega
  obtain ⟨-, -, -, -, -, -, -, -, -, -, e50, e51⟩ := idx_facts ⟨(i 0).val / 64, htl⟩
  have e50' : win2_5.index ⟨(i 0).val / 64, htl⟩ (0 : Fin 2) = (i 0).val / 64 := e50
  refine ⟨⟨(i 0).val / 64, htl⟩, flush2_5 _, ?_⟩
  rw [mem_blk]
  intro a
  match a with
  | ⟨0, _⟩ =>
    show win2_5.index ⟨(i 0).val / 64, htl⟩ (0 : Fin 2) * 64 ≤ (i 0).val
      ∧ (i 0).val < win2_5.index ⟨(i 0).val / 64, htl⟩ (0 : Fin 2) * 64 + 64
    omega
  | ⟨1, _⟩ =>
    show win2_5.index ⟨(i 0).val / 64, htl⟩ (1 : Fin 2) * 8 ≤ (i 1).val
      ∧ (i 1).val < win2_5.index ⟨(i 0).val / 64, htl⟩ (1 : Fin 2) * 8 + 8
    omega

/-- The result array after the kernel: `whole` of the arrays as the kernel found them. -/
theorem result_eq (c : Dev nD) :
    (dat2 V c).arrAt 5 cfg2.N = whole (V c main_v64) (V c main_v65) (V c main_v66) (V c main_v67) (V c main_v68) :=
  (dat2 V c).arrAt_eq_of_cover 5 _ (fun t _ => flushed_eq V c t) cover

end Cert.KernelIdeal.Classifier

end
-- ==== Proof.StageMatch.lean ====
/-
  Each kernel's function, on the arrays the host hands it, is the model's stage.

  The host hands the kernels their operands after a change of float format (the identity on extended reals), the
  bias vector laid out as one row, and, for the classifier, the two halves of the 256 × 8 matrix cut out as
  slices.  Entry by entry the kernel's `(∑ₖ x₁ w₁) + (∑ₖ x₂ w₂) + b` is then the model's linear stage; the first
  layer's maximum with 0 is the model's `relu`; and for the classifier the two 128-term sums against the slices
  are the model's one 256-term sum against the joined operand, split at 128.
-/
import proofs.«132302_j42863773614470_1_alg».proof.Proof.ModelEntries
import proofs.«132302_j42863773614470_1_alg».proof.Proof.Layer1Kernel
import proofs.«132302_j42863773614470_1_alg».proof.Proof.Layer2Kernel
import proofs.«132302_j42863773614470_1_alg».proof.Proof.ClassifierKernel

set_option maxRecDepth 16384

noncomputable section

namespace Cert.KernelIdeal.Whole

open Cert.KernelIdeal Cert.KernelIdeal.Gen Idealize.ShloMosaic Idealize.ShloMosaic.ValueIdx
open scoped BigOperators

/-- The first layer's kernel computes the model's hidden layer from the node features and their neighbour means. -/
theorem layer1_is_hidden (x mean : Sage.Nodes) (Ws Wn : Sage.Weights) (b : Sage.Bias) :
    Layer1.whole x mean Ws Wn (shapeCast S1x128 b shapeCasts_S128_S1x128) = Sage.relu (Sage.linear x mean Ws Wn b) := by
  funext i
  obtain ⟨r, q, rfl⟩ : ∃ (r : Fin 100000) (q : Fin 128), i = ix2 r q := ⟨i 0, i 1, eq_ix2 i⟩
  rw [Sage.relu_entry, Sage.linear_entry]
  unfold Layer1.whole
  refine congrArg₂ max ?_ rfl
  refine DualLinear.entry_congr _ _ _ _ _ _ _ _ _ _ _ _ _ _ (fun _ => rfl) (fun _ => rfl) (fun _ => rfl) (fun _ => rfl) ?_
  exact DualLinear.row_of_vector b shapeCasts_S128_S1x128 q

/-- The second layer's kernel computes the model's linear stage. -/
theorem layer2_is_linear (x mean : Sage.Nodes) (Ws Wn : Sage.Weights) (b : Sage.Bias) :
    Layer2.whole x mean Ws Wn (shapeCast S1x128 b shapeCasts_S128_S1x128) = Sage.linear x mean Ws Wn b := by
  funext i
  obtain ⟨r, q, rfl⟩ : ∃ (r : Fin 100000) (q : Fin 128), i = ix2 r q := ⟨i 0, i 1, eq_ix2 i⟩
  rw [Sage.linear_entry]
  unfold Layer2.whole
  refine DualLinear.entry_congr _ _ _ _ _ _ _ _ _ _ _ _ _ _ (fun _ => rfl) (fun _ => rfl) (fun _ => rfl) (fun _ => rfl) ?_
  exact DualLinear.row_of_vector b shapeCasts_S128_S1x128 q

/-- The classifier's kernel, given the two halves of the classifier matrix, computes the model's classifier. -/
theorem classifier_is_classify (hg perm : Sage.Graphs) (Wc : Sage.Classifier) (bc : Sage.ClassBias) :
    Classifier.whole hg perm (extractStridedSlice S128x8 ![0, 0] Wc slices_S256x8_S128x8_0_0)
        (extractStridedSlice S128x8 ![128, 0] Wc slices_S256x8_S128x8_128_0) (shapeCast S1x8 bc shapeCasts_S8_S1x8)
      = Sage.classify hg perm Wc bc := by
  funext i
  obtain ⟨r, q, rfl⟩ : ∃ (r : Fin 64) (q : Fin 8), i = ix2 r q := ⟨i 0, i 1, eq_ix2 i⟩
  rw [Sage.classify_entry]
  unfold Classifier.whole
  refine DualLinear.entry_congr _ _ _ _ _ _ _ _ _ _ _ _ _ _ (fun _ => rfl) (fun _ => rfl) (fun k => ?_) (fun k => ?_) ?_
  · -- row k of the top slice is row k of the matrix
    unfold Sage.topHalf
    refine extractStridedSlice_apply _ Wc _ (ix2 k q) _ (fun a => ?_)
    match a with
    | ⟨0, _⟩ => show k.val = 0 + k.val; omega
    | ⟨1, _⟩ => show q.val = 0 + q.val; omega
  · -- row k of the bottom slice is row 128 + k
    unfold Sage.bottomHalf
    refine extractStridedSlice_apply _ Wc _ (ix2 k q) _ (fun a => ?_)
    match a with
    | ⟨0, _⟩ => show 128 + k.val = 128 + k.val; rfl
    | ⟨1, _⟩ => show q.val = 0 + q.val; omega
  · exact DualLinear.row_of_vector bc shapeCasts_S8_S1x8 q

end Cert.KernelIdeal.Whole

end
-- ==== Proof.HostSpelling.lean ====
/-
  The kernel program's host operations, as the model's functions.

  Between its kernels the kernel program applies, to whatever arrays it has, the same gather, scatter-add and
  division chains the model is written with: `same_mean` and `same_pool` say so, with the arrays as variables
  (the two programs' dimension records are the same records).  A change of float format on the way into a
  kernel is the identity on extended reals (`format_id`).
-/
import proofs.«132302_j42863773614470_1_alg».proof.Proof.Gen.KernelIdeal
import proofs.«132302_j42863773614470_1_alg».proof.Proof.SageSpec

noncomputable section

namespace Cert.KernelIdeal.Whole

open Cert.KernelIdeal Cert.KernelIdeal.Gen Idealize.ShloMosaic

/-- A change of float format is the identity on extended reals. -/
theorem format_id {s : Shape} (a : FVec Ideal s .f32) (h : FTy.bf16.bits < FTy.f32.bits) :
    (truncf .bf16 a h : FVec Ideal s .bf16) = a := rfl

/-- The kernel program's neighbour-mean chain is the model's. -/
theorem same_mean (x : FVec Ideal S100000x128 .f32) (src dst : IVec S1600000 32) :
    (Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))))) : FVec Ideal S100000x128 .f32)
      = Sage.neighbourMean x src dst := by
  unfold Sage.neighbourMean
  rfl

/-- The kernel program's per-graph-mean chain is the model's. -/
theorem same_pool (x : FVec Ideal S100000x128 .f32) (gid : IVec S100000 32) :
    (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 gid) x) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 gid) (broadcastInDim S100000 ![] bcast_S_S100000 (constant S_ .f32 0x3F800000#32))) (broadcastInDim S64 ![] bcast_S_S64 (constant S_ .f32 0x3F800000#32))))) : FVec Ideal S64x128 .f32)
      = Sage.graphMean x gid := by
  unfold Sage.graphMean
  rfl

end Cert.KernelIdeal.Whole

end
-- ==== Proof.Stretch1.lean ====
/-
  What the first kernel is handed.

  The first stretch of host operations computes the neighbour means of the node features, changes the float format
  of the four matrices (the identity on extended reals) and lays the bias vector out as one row.
-/
import proofs.«132302_j42863773614470_1_alg».proof.Proof.Gen.KernelIdeal.Frame
import proofs.«132302_j42863773614470_1_alg».proof.Proof.HostSpelling
import Idealize.ShloMosaic.Lib.StableHlo.Run
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The node features. -/
theorem in1_x (c : Dev nD) : (V1 m ρ c main_v19 : FVec Ideal S100000x128 .bf16) = m ((c : Thread nD τ).loc main_arg0) := by
  show StableHlo.after hostOps0 (W0 m ρ c) (Proc.devRef .tc main_v19) = _
  after_results_simp <;> first | rfl | exact format_id _ _

set_option maxHeartbeats 4000000 in
/-- Their neighbour means. -/
theorem in1_mean (c : Dev nD) : (V1 m ρ c main_v20 : FVec Ideal S100000x128 .bf16) = Sage.neighbourMean (m ((c : Thread nD τ).loc main_arg0)) (m ((c : Thread nD τ).loc main_arg2)) (m ((c : Thread nD τ).loc main_arg3)) := by
  show StableHlo.after hostOps0 (W0 m ρ c) (Proc.devRef .tc main_v20) = _
  after_results_simp <;> exact (format_id _ _).trans (same_mean _ _ _)

set_option maxHeartbeats 4000000 in
/-- The first layer's self weights. -/
theorem in1_Ws (c : Dev nD) : (V1 m ρ c main_v21 : FVec Ideal S128x128 .bf16) = m ((c : Thread nD τ).loc main_arg5) := by
  show StableHlo.after hostOps0 (W0 m ρ c) (Proc.devRef .tc main_v21) = _
  after_results_simp <;> first | rfl | exact format_id _ _

set_option maxHeartbeats 4000000 in
/-- The first layer's neighbour weights. -/
theorem in1_Wn (c : Dev nD) : (V1 m ρ c main_v22 : FVec Ideal S128x128 .bf16) = m ((c : Thread nD τ).loc main_arg6) := by
  show StableHlo.after hostOps0 (W0 m ρ c) (Proc.devRef .tc main_v22) = _
  after_results_simp <;> first | rfl | exact format_id _ _

set_option maxHeartbeats 4000000 in
/-- The first layer's bias as one row. -/
theorem in1_b (c : Dev nD) : (V1 m ρ c main_v23 : FVec Ideal S1x128 .f32) = shapeCast S1x128 (m ((c : Thread nD τ).loc main_arg7)) shapeCasts_S128_S1x128 := by
  show StableHlo.after hostOps0 (W0 m ρ c) (Proc.devRef .tc main_v23) = _
  after_results_simp <;> rfl

end Cert.KernelIdeal.Whole

end
-- ==== Proof.Stretch2.lean ====
/-
  What the second kernel is handed, in terms of what the first kernel left.

  The second stretch applies to the first kernel's result array `h₁` what the first stretch applied to the node
  features: the neighbour means of `h₁`, the format changes, the bias as one row.
-/
import proofs.«132302_j42863773614470_1_alg».proof.Proof.Gen.KernelIdeal.Frame
import proofs.«132302_j42863773614470_1_alg».proof.Proof.HostSpelling
import Idealize.ShloMosaic.Lib.StableHlo.Run
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The hidden features. -/
theorem in2_x (c : Dev nD) : (V3 m ρ c main_v44 : FVec Ideal S100000x128 .bf16) = W2 m ρ c (Proc.devRef .tc main_v24) := by
  show StableHlo.after hostOps1 (W2 m ρ c) (Proc.devRef .tc main_v44) = _
  after_results_simp <;> first | exact format_id _ _ | rfl

set_option maxHeartbeats 4000000 in
/-- Their neighbour means. -/
theorem in2_mean (c : Dev nD) : (V3 m ρ c main_v45 : FVec Ideal S100000x128 .bf16) = Sage.neighbourMean (W2 m ρ c (Proc.devRef .tc main_v24)) (W2 m ρ c (Proc.devRef .tc main_arg2)) (W2 m ρ c (Proc.devRef .tc main_arg3)) := by
  show StableHlo.after hostOps1 (W2 m ρ c) (Proc.devRef .tc main_v45) = _
  after_results_simp <;> exact (format_id _ _).trans (same_mean _ _ _)

set_option maxHeartbeats 4000000 in
/-- The second layer's self weights. -/
theorem in2_Ws (c : Dev nD) : (V3 m ρ c main_v46 : FVec Ideal S128x128 .bf16) = W2 m ρ c (Proc.devRef .tc main_arg8) := by
  show StableHlo.after hostOps1 (W2 m ρ c) (Proc.devRef .tc main_v46) = _
  after_results_simp <;> first | exact format_id _ _ | rfl

set_option maxHeartbeats 4000000 in
/-- The second layer's neighbour weights. -/
theorem in2_Wn (c : Dev nD) : (V3 m ρ c main_v47 : FVec Ideal S128x128 .bf16) = W2 m ρ c (Proc.devRef .tc main_arg9) := by
  show StableHlo.after hostOps1 (W2 m ρ c) (Proc.devRef .tc main_v47) = _
  after_results_simp <;> first | exact format_id _ _ | rfl

set_option maxHeartbeats 4000000 in
/-- The second layer's bias as one row. -/
theorem in2_b (c : Dev nD) : (V3 m ρ c main_v48 : FVec Ideal S1x128 .f32) = shapeCast S1x128 (W2 m ρ c (Proc.devRef .tc main_arg10)) shapeCasts_S128_S1x128 := by
  show StableHlo.after hostOps1 (W2 m ρ c) (Proc.devRef .tc main_v48) = _
  after_results_simp <;> rfl

end Cert.KernelIdeal.Whole

end
-- ==== Proof.KeptArgs.lean ====
/-
  Arguments the first kernel does not touch.

  The first stretch of host operations writes only its own intermediate buffers and the first kernel writes only
  its result array, so after both an argument buffer still holds what it was launched with.
-/
import proofs.«132302_j42863773614470_1_alg».proof.Proof.Gen.KernelIdeal.Frame

import Idealize.ShloMosaic.PureOps.Ideal
import Idealize.ShloMosaic.Lib.StableHlo.Run
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- Argument 1 after the first kernel is as launched. -/
theorem kept2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp <;> rfl

set_option maxHeartbeats 4000000 in
/-- Argument 2 after the first kernel is as launched. -/
theorem kept2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp <;> rfl

set_option maxHeartbeats 4000000 in
/-- Argument 3 after the first kernel is as launched. -/
theorem kept2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results_simp <;> rfl

set_option maxHeartbeats 4000000 in
/-- Argument 4 after the first kernel is as launched. -/
theorem kept2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results_simp <;> rfl

set_option maxHeartbeats 4000000 in
/-- Argument 8 after the first kernel is as launched. -/
theorem kept2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp <;> rfl

set_option maxHeartbeats 4000000 in
/-- Argument 9 after the first kernel is as launched. -/
theorem kept2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp <;> rfl

set_option maxHeartbeats 4000000 in
/-- Argument 10 after the first kernel is as launched. -/
theorem kept2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp <;> rfl

set_option maxHeartbeats 4000000 in
/-- Argument 11 after the first kernel is as launched. -/
theorem kept2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results_simp <;> rfl

set_option maxHeartbeats 4000000 in
/-- Argument 12 after the first kernel is as launched. -/
theorem kept2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results_simp <;> rfl

end Cert.KernelIdeal.Whole

end
-- ==== Proof.Stretch3.lean ====
/-
  What the classifier's kernel is handed, in terms of what the second kernel left.

  The third stretch takes the per-graph means of the second kernel's result array, cuts the classifier matrix
  into its top and bottom halves, changes float formats and lays the class bias out as one row.  The arguments
  it reads have passed both earlier kernels untouched.
-/
import proofs.«132302_j42863773614470_1_alg».proof.Proof.Gen.KernelIdeal.Frame
import proofs.«132302_j42863773614470_1_alg».proof.Proof.HostSpelling
import proofs.«132302_j42863773614470_1_alg».proof.Proof.KeptArgs
import Idealize.ShloMosaic.Lib.StableHlo.Run
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The per-graph means. -/
theorem in3_hg (c : Dev nD) : (V5 m ρ c main_v64 : FVec Ideal S64x128 .bf16) = Sage.graphMean (W4 m ρ c (Proc.devRef .tc main_v49)) (W4 m ρ c (Proc.devRef .tc main_arg4)) := by
  show StableHlo.after hostOps2 (W4 m ρ c) (Proc.devRef .tc main_v64) = _
  after_results_simp <;> exact (format_id _ _).trans (same_pool _ _)

set_option maxHeartbeats 4000000 in
/-- The side features. -/
theorem in3_perm (c : Dev nD) : (V5 m ρ c main_v65 : FVec Ideal S64x128 .bf16) = W4 m ρ c (Proc.devRef .tc main_arg1) := by
  show StableHlo.after hostOps2 (W4 m ρ c) (Proc.devRef .tc main_v65) = _
  after_results_simp <;> first | exact format_id _ _ | rfl

set_option maxHeartbeats 4000000 in
/-- The classifier's top half. -/
theorem in3_top (c : Dev nD) : (V5 m ρ c main_v66 : FVec Ideal S128x8 .bf16) = extractStridedSlice S128x8 ![0, 0] (W4 m ρ c (Proc.devRef .tc main_arg11)) slices_S256x8_S128x8_0_0 := by
  show StableHlo.after hostOps2 (W4 m ρ c) (Proc.devRef .tc main_v66) = _
  after_results_simp <;> first | exact format_id _ _ | rfl

set_option maxHeartbeats 4000000 in
/-- The classifier's bottom half. -/
theorem in3_bottom (c : Dev nD) : (V5 m ρ c main_v67 : FVec Ideal S128x8 .bf16) = extractStridedSlice S128x8 ![128, 0] (W4 m ρ c (Proc.devRef .tc main_arg11)) slices_S256x8_S128x8_128_0 := by
  show StableHlo.after hostOps2 (W4 m ρ c) (Proc.devRef .tc main_v67) = _
  after_results_simp <;> first | exact format_id _ _ | rfl

set_option maxHeartbeats 4000000 in
/-- The class bias as one row. -/
theorem in3_b (c : Dev nD) : (V5 m ρ c main_v68 : FVec Ideal S1x8 .f32) = shapeCast S1x8 (W4 m ρ c (Proc.devRef .tc main_arg12)) shapeCasts_S8_S1x8 := by
  show StableHlo.after hostOps2 (W4 m ρ c) (Proc.devRef .tc main_v68) = _
  after_results_simp <;> rfl

set_option maxHeartbeats 4000000 in
/-- Argument 4 after the second kernel is as launched. -/
theorem kept4_arg4 (c : Dev nD) : W4 m ρ c (Proc.devRef .tc main_arg4) = m ((c : Thread nD τ).loc main_arg4) := by
  refine (W4_of_ne m ρ c main_arg4 (by decide)).trans ?_
  refine (show StableHlo.after hostOps1 (W2 m ρ c) (Proc.devRef .tc main_arg4) = W2 m ρ c (Proc.devRef .tc main_arg4) from by
    after_results_simp <;> rfl).trans ?_
  exact kept2_arg4 m ρ c

set_option maxHeartbeats 4000000 in
/-- Argument 1 after the second kernel is as launched. -/
theorem kept4_arg1 (c : Dev nD) : W4 m ρ c (Proc.devRef .tc main_arg1) = m ((c : Thread nD τ).loc main_arg1) := by
  refine (W4_of_ne m ρ c main_arg1 (by decide)).trans ?_
  refine (show StableHlo.after hostOps1 (W2 m ρ c) (Proc.devRef .tc main_arg1) = W2 m ρ c (Proc.devRef .tc main_arg1) from by
    after_results_simp <;> rfl).trans ?_
  exact kept2_arg1 m ρ c

set_option maxHeartbeats 4000000 in
/-- Argument 11 after the second kernel is as launched. -/
theorem kept4_arg11 (c : Dev nD) : W4 m ρ c (Proc.devRef .tc main_arg11) = m ((c : Thread nD τ).loc main_arg11) := by
  refine (W4_of_ne m ρ c main_arg11 (by decide)).trans ?_
  refine (show StableHlo.after hostOps1 (W2 m ρ c) (Proc.devRef .tc main_arg11) = W2 m ρ c (Proc.devRef .tc main_arg11) from by
    after_results_simp <;> rfl).trans ?_
  exact kept2_arg11 m ρ c

set_option maxHeartbeats 4000000 in
/-- Argument 12 after the second kernel is as launched. -/
theorem kept4_arg12 (c : Dev nD) : W4 m ρ c (Proc.devRef .tc main_arg12) = m ((c : Thread nD τ).loc main_arg12) := by
  refine (W4_of_ne m ρ c main_arg12 (by decide)).trans ?_
  refine (show StableHlo.after hostOps1 (W2 m ρ c) (Proc.devRef .tc main_arg12) = W2 m ρ c (Proc.devRef .tc main_arg12) from by
    after_results_simp <;> rfl).trans ?_
  exact kept2_arg12 m ρ c

end Cert.KernelIdeal.Whole

end
-- ==== Proof.KernelRun.lean ====
/-
  The kernel program's run with its result named.

  The program is six stretches in a row: host operations, the first layer's kernel, host operations, the second
  layer's kernel, host operations, the classifier's kernel.  From any memory every weakly fair execution goes
  through the six in order and ends; the buffers' contents at each boundary are a fold from the launch memory
  (host operations applied, a kernel's result array replaced by what its write-backs leave).  At the end every
  buffer that outlives the kernels holds the last boundary's contents (`run_all`); in particular the result buffer
  does, and each argument, which nothing writes, is as launched (`run`).
-/
import proofs.«132302_j42863773614470_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every buffer that outlives the kernels at the last boundary's contents:
    the six segments chained from the launch, the last thread state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core keeps anything beside it
      have hnone : (BI.emp : sProp 𝕄) ⊢ bigSep Finset.univ (fun _ : Dev nD => (BI.emp : sProp 𝕄)) := by
        rw [BI.bigSep_emp_const]
      have hlaunch : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu; imodintro
      isplitl [Hu]
      · iapply hlaunch; iexact Hu
      · iapply hnone; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      -- each core: its unscoped buffers at the launch memory are the first host stretch's holdings; the
      -- generator register and the empty debt make up the rest of the first thread state
      refine Pipeline.initEach L lv fun c => ?_
      rw [Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := fun c s => ∀ b ∈ Pipeline.ucRefs τ sig, s.mem (((c : Thread nD τ)).1, b) = W6 m ρ c b)
    (hfin := fun c s' => by
      -- the last thread state holds every such buffer at the last boundary's contents: read them all
      iintro ⟨⟨Hbufs, -⟩, HSI⟩
      unfold StableHlo.held
      imodintro
      iapply (pointsTo_read_all (Pipeline.ucRefs τ sig) (fun b => (((c : Thread nD τ)).1, b)) (W6 m ρ c) s')
      isplitl [Hbufs] <;> iassumption)
    (hQ := fun s h => h)

/-- Every weakly fair execution ends, the result buffer at the last boundary's contents, the arguments as launched. -/
theorem run : θ_run defs (onTc (τ := τ) (main (F := F))) ⟨m, fun _ => 0, ρ⟩ (fun r => ∀ c : Dev nD,
      r.2.mem ((c.tc : Thread nD τ).loc main_v69) = W6 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v69 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩)
    (run_all m ρ)

end Cert.KernelIdeal.Whole

end
-- ==== Proof.KernelValue.lean ====
/-
  The kernel program computes the model.

  Boundary by boundary.  After the first kernel its result array holds the model's hidden layer of the arguments:
  the kernel's function of what the first stretch handed it.  After the second kernel its result array holds the
  second linear stage of that hidden layer and its neighbour means; the edge lists and the second layer's weights it
  needs have passed the first kernel untouched.  After the classifier's kernel the result array holds the
  classifier of the per-graph means of that, the side features and the classifier's two halves.  That is `model`.
  The run's result buffer holds the last boundary's contents, so every weakly fair execution of the kernel program
  ends with `model` of its arguments in the result buffer and the arguments unchanged.
-/
import proofs.«132302_j42863773614470_1_alg».proof.Proof.Gen.KernelIdeal.Frame
import proofs.«132302_j42863773614470_1_alg».proof.Proof.SageSpec
import proofs.«132302_j42863773614470_1_alg».proof.Proof.StageMatch
import proofs.«132302_j42863773614470_1_alg».proof.Proof.Stretch1
import proofs.«132302_j42863773614470_1_alg».proof.Proof.Stretch2
import proofs.«132302_j42863773614470_1_alg».proof.Proof.Stretch3
import proofs.«132302_j42863773614470_1_alg».proof.Proof.KernelRun

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first kernel its result array holds the model's hidden layer. -/
theorem hidden_eq (c : Dev nD) :
    (W2 m ρ c (Proc.devRef .tc main_v24) : Sage.Nodes) = Sage.hidden (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) := by
  refine (W2_arr m ρ c 5).trans ?_
  rw [Layer1.result_eq (V1 m ρ) c, in1_x, in1_mean, in1_Ws, in1_Wn, in1_b]
  unfold Sage.hidden
  exact layer1_is_hidden _ _ _ _ _

/-- After the second kernel its result array holds the second linear stage of the hidden layer. -/
theorem second_eq (c : Dev nD) :
    (W4 m ρ c (Proc.devRef .tc main_v49) : Sage.Nodes)
      = Sage.linear (Sage.hidden (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)))
          (Sage.neighbourMean (Sage.hidden (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7))) (m ((c : Thread nD τ).loc main_arg2)) (m ((c : Thread nD τ).loc main_arg3)))
          (m ((c : Thread nD τ).loc main_arg8)) (m ((c : Thread nD τ).loc main_arg9)) (m ((c : Thread nD τ).loc main_arg10)) := by
  refine (W4_arr m ρ c 5).trans ?_
  rw [Layer2.result_eq (V3 m ρ) c, in2_x, in2_mean, in2_Ws, in2_Wn, in2_b, hidden_eq, kept2_arg2, kept2_arg3,
    kept2_arg8, kept2_arg9, kept2_arg10]
  exact layer2_is_linear _ _ _ _ _

/-- After the classifier's kernel the result array holds the model of the arguments. -/
theorem result_eq (c : Dev nD) :
    (W6 m ρ c (Proc.devRef .tc main_v69) : Sage.Scores)
      = Sage.model
          (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12)) := by
  refine (W6_arr m ρ c 5).trans ?_
  rw [Classifier.result_eq (V5 m ρ) c, in3_hg, in3_perm, in3_top, in3_bottom, in3_b, second_eq, kept4_arg4, kept4_arg1,
    kept4_arg11, kept4_arg12]
  unfold Sage.model
  exact classifier_is_classify _ _ _ _

/-- Every weakly fair execution of the kernel program ends with the model of the arguments in the result buffer,
    the arguments unchanged. -/
theorem run_model : θ_run defs (onTc (τ := τ) (main (F := Ideal))) ⟨m, fun _ => 0, ρ⟩ (fun r => ∀ c : Dev nD,
      r.2.mem ((c.tc : Thread nD τ).loc main_v69) = Sage.model
          (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (run (F := Ideal) m ρ)

end Cert.KernelIdeal.Whole

end
-- ==== Proof.lean ====
/-
  Two graph-convolution layers, a per-graph mean and a classifier: the kernel program against its reference.

  Both programs compute, from node features `h`, edge lists `src → dst`, graph ids and weights,
      h₁ = relu(h · W₁ˢ + mean(h) · W₁ⁿ + b₁),   h₂ = h₁ · W₂ˢ + mean(h₁) · W₂ⁿ + b₂,
      out = [graphMean(h₂) | perm] · Wc + bc,
  where `mean` averages a node's incoming neighbours.  The reference does every step with host operations.  The
  kernel program does the neighbour and graph means with the very same host operations, and the three dense steps
  in kernels, 2000 rows at a time, each as two products into zero accumulators added to a one-row bias; the last one
  multiplies the graph means by the top half of `Wc` and the side features by its bottom half instead of joining
  them first.  On extended reals the format changes on the way into the kernels are the identity, a product into a
  zero accumulator is the plain sum, and a 256-term sum is its two 128-term halves added, so both programs end with
  the same function of the arguments (`Sage.model`): the kernel program by reading each kernel's blocks back into
  one whole-array function and chaining the three boundaries, the reference by its run's composed term.  No law
  used needs the inputs finite (only the order-preserving regrouping of a finite sum), so the precondition is never
  opened.  The idealizing pass rewrote nothing, so there is nothing to preserve beyond the program's own text.
-/
import proofs.«132302_j42863773614470_1_alg».proof.Defs
import proofs.«132302_j42863773614470_1_alg».proof.Proof.Gen.Kernel
import proofs.«132302_j42863773614470_1_alg».proof.Proof.Gen.Kernel.Skeleton
import proofs.«132302_j42863773614470_1_alg».proof.Proof.Gen.Kernel.Launch
import proofs.«132302_j42863773614470_1_alg».proof.Proof.Gen.Kernel.Points
import proofs.«132302_j42863773614470_1_alg».proof.Proof.Gen.Kernel.Frame
import proofs.«132302_j42863773614470_1_alg».proof.Proof.Gen.KernelIdeal
import proofs.«132302_j42863773614470_1_alg».proof.Proof.Gen.KernelIdeal.Skeleton
import proofs.«132302_j42863773614470_1_alg».proof.Proof.Gen.KernelIdeal.Launch
import proofs.«132302_j42863773614470_1_alg».proof.Proof.Gen.KernelIdeal.Points
import proofs.«132302_j42863773614470_1_alg».proof.Proof.Gen.KernelIdeal.Frame
import proofs.«132302_j42863773614470_1_alg».proof.Proof.Gen.ReferenceIdeal
import proofs.«132302_j42863773614470_1_alg».proof.Proof.Gen.ReferenceIdeal.Run
import proofs.«132302_j42863773614470_1_alg».proof.Proof.Gen.ReferenceIdeal.Read
import proofs.«132302_j42863773614470_1_alg».proof.Proof.Gen.Pre_finite_inputs
import proofs.«132302_j42863773614470_1_alg».proof.Proof.SageSpec
import proofs.«132302_j42863773614470_1_alg».proof.Proof.KernelValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- From memories that agree on the arguments both programs end with the model of the arguments. -/
theorem algebraic : Cert.algebraic_KernelIdeal_ReferenceIdeal := by
  intro m ρ m' ρ' _ hagree
  refine ⟨fun c => Cert.Sage.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.Whole.run_model m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.Sage.res_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
